-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512x64 .f32) (main_arg5 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S1x64 : Shape := ⟨2, ![1, 64]⟩
abbrev S1000x512 : Shape := ⟨2, ![1000, 512]⟩
abbrev S10000x64 : Shape := ⟨2, ![10000, 64]⟩
abbrev S400x10000 : Shape := ⟨2, ![400, 10000]⟩
abbrev S400x64 : Shape := ⟨2, ![400, 64]⟩
abbrev S400x512 : Shape := ⟨2, ![400, 512]⟩
abbrev S400 : Shape := ⟨1, ![400]⟩
abbrev S400x1 : Shape := ⟨2, ![400, 1]⟩

abbrev nBuf : Space → Nat
  | .hbm => 15
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S1x512, .f32⟩
  | .hbm, ⟨7, _⟩ => ⟨S1x64, .f32⟩
  | .hbm, ⟨8, _⟩ => ⟨S10000x512, .bf16⟩
  | .hbm, ⟨9, _⟩ => ⟨S10000x10000, .bf16⟩
  | .hbm, ⟨10, _⟩ => ⟨S512x512, .bf16⟩
  | .hbm, ⟨11, _⟩ => ⟨S512x64, .bf16⟩
  | .hbm, ⟨12, _⟩ => ⟨S10000x512, .bf16⟩
  | .hbm, ⟨13, _⟩ => ⟨S10000x64, .bf16⟩
  | .hbm, ⟨14, _⟩ => ⟨S10000x64, .f32⟩
  | .local _ .vmem, ⟨0, _⟩ => ⟨S1000x512, .bf16⟩
  | .local _ .vmem, ⟨1, _⟩ => ⟨S1000x512, .bf16⟩
  | .local _ .vmem, ⟨2, _⟩ => ⟨S512x512, .bf16⟩
  | .local _ .vmem, ⟨3, _⟩ => ⟨S1000x512, .bf16⟩
  | .local _ .vmem, ⟨4, _⟩ => ⟨S1000x512, .bf16⟩
  | .local _ .vmem, ⟨5, _⟩ => ⟨S400x10000, .bf16⟩
  | .local _ .vmem, ⟨6, _⟩ => ⟨S400x10000, .bf16⟩
  | .local _ .vmem, ⟨7, _⟩ => ⟨S10000x512, .bf16⟩
  | .local _ .vmem, ⟨8, _⟩ => ⟨S1x512, .f32⟩
  | .local _ .vmem, ⟨9, _⟩ => ⟨S512x64, .bf16⟩
  | .local _ .vmem, ⟨10, _⟩ => ⟨S400x64, .bf16⟩
  | .local _ .vmem, ⟨11, _⟩ => ⟨S400x64, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S512_S1x512 : S512.ShapeCasts S1x512
  shapeCasts_S64_S1x64 : S64.ShapeCasts S1x64
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1000x512_S1000x512_0_0 : (Rect.unit (s := S1000x512) ![0, 0] S1000x512.size inb_S1000x512_S1000x512_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  dot_S400x512_S512x64_S400x64_1_0_0_1_n_n_wf : DotDims.WF S400x512 S512x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .bf16 = 32 ∨ (Rect.block (s := S10000x512) S1000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .bf16 = 32 ∨ (Rect.block (s := S512x64) S512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x64_S400x64_1_0_0_1_n_n : DotDims S400x512 S512x64 S400x64 where
  lhsContracting := [1]
  rhsContracting := [0]
  lhsNonContracting := [0]
  rhsNonContracting := [1]
  lhsBatch := []
  rhsBatch := []
  wf := dot_S400x512_S512x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_v2) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v3) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x64_S10000x64_1_0_0_1_n_n_wf : DotDims.WF S10000x512 S512x64 S10000x64 [1] [0] [0] [1] [] []
  dot_S10000x10000_S10000x64_S10000x64_1_0_0_1_n_n_wf : DotDims.WF S10000x10000 S10000x64 S10000x64 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The idealized kernel's run with its result array named.

  The run goes through four stretches: the host operations before the first region, then the three regions. At each
  boundary every buffer that outlives a region holds a definite array; after the last region buffer `b` holds `W4 b`: the
  last region's arrays at what its write-backs leave, every other buffer as the region before left it. Read at the result
  buffer and at the six argument buffers (which no stretch writes), this is the run the equivalence needs.
-/
import proofs.«164380_g25151328485548_cont_9to1_1866_6_alg».proof.Proof.KernelRunP

noncomputable section

namespace Cert.KernelIdeal.Whole

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Every weakly fair execution of @main terminates, nothing faulting, with the result array at its contents after the last
    region and the argument arrays as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v8 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (Cert.KernelIdeal.GenP.run_all m ρ)

end Cert.KernelIdeal.Whole

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«164380_g25151328485548_cont_9to1_1866_6_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.LibLogSoftmax.lean ====
/-
  The row-wise log-softmax of a matrix of extended reals, and its two spellings read at an entry, for any extents.

      rowLogSoftmax z (p, q) = (z(p,q) - m p) - log (∑ₖ exp (z(p,k) - m p)),      m p = rowMax z p,

  the maximum of row p folded from -∞. A kernel body spells it with reductions along the rows whose results are laid
  out as columns [A, 1] and repeated along the row (`kernel_logSoftmax_apply`); the host spells it with `reduce`s whose
  results are broadcast through [A] → [A, 1] → [A, B], and takes the greater of -∞ and the fold of the maximum, which is
  the fold (`host_logSoftmax_apply`). Each entry reads its own row only (`rowLogSoftmaxAt_congr`).
-/
import Idealize.ShloMosaic.PureOps.Ideal.Laws
import Idealize.ShloMosaic.Lib.ValueIdx
import Idealize.ShloMosaic.Lib.Pipeline.Value
import proofs.«164380_g25151328485548_cont_9to1_1866_6_alg».proof.Proof.LibOuterSum
import proofs.«164380_g25151328485548_cont_9to1_1866_6_alg».proof.Proof.LibRowReduce
import proofs.«164380_g25151328485548_cont_9to1_1866_6_alg».proof.Proof.LibFoldLast

noncomputable section

namespace Cert.LibLogSoftmax

open Idealize.ShloMosaic Idealize.ShloMosaic.ValueIdx

/-- A matrix of extended reals with `a` rows and `b` columns. -/
abbrev Arr (a b : Nat) : Type := (⟨2, ![a, b]⟩ : Shape).Idx → EReal

/-- The maximum of row `p`, folded from `-∞`. -/
def rowMax {M N : Nat} (z : Arr M N) (p : Fin M) : EReal :=
  (Finset.univ : Finset (Fin N)).fold max (⊥ : EReal) (fun k => z (ix2 p k))

/-- The row-wise log-softmax at row `p`, column `q`. -/
def rowLogSoftmaxAt {M N : Nat} (z : Arr M N) (p : Fin M) (q : Fin N) : EReal :=
  (z (ix2 p q) - rowMax z p) - Ideal.log (∑ k : Fin N, Ideal.exp (z (ix2 p k) - rowMax z p))

/-- The row-wise log-softmax as an array. -/
def rowLogSoftmax {M N : Nat} (z : Arr M N) : Arr M N := fun i => rowLogSoftmaxAt z (i 0) (i 1)

theorem rowLogSoftmax_ix2 {M N : Nat} (z : Arr M N) (p : Fin M) (q : Fin N) :
    rowLogSoftmax z (ix2 p q) = rowLogSoftmaxAt z p q := rfl

/-- The maximum of a row depends on that row only. -/
theorem rowMax_congr {M M' N : Nat} {z : Arr M N} {z' : Arr M' N} (p : Fin M) (p' : Fin M')
    (hz : ∀ k : Fin N, z (ix2 p k) = z' (ix2 p' k)) : rowMax z p = rowMax z' p' := by
  unfold rowMax
  exact congrArg (fun f => (Finset.univ : Finset (Fin N)).fold max (⊥ : EReal) f) (funext hz)

/-- A log-softmax entry depends on its row only. -/
theorem rowLogSoftmaxAt_congr {M M' N : Nat} {z : Arr M N} {z' : Arr M' N} (p : Fin M) (p' : Fin M') (q : Fin N)
    (hz : ∀ k : Fin N, z (ix2 p k) = z' (ix2 p' k)) : rowLogSoftmaxAt z p q = rowLogSoftmaxAt z' p' q := by
  unfold rowLogSoftmaxAt
  rw [rowMax_congr p p' hz, hz q, Finset.sum_congr rfl fun k _ => by rw [hz k]]

/-! ## The kernel's spelling -/

/-- A row's maximum (from -∞), laid out as a column and repeated along the row, at an entry. -/
theorem kernel_rowMax_apply {A B : Nat} (z : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ (multiReduction .maximumf [1] ⟨1, ![A]⟩ z 0xFF800000#32 h hφ hacc) hc) hb (ix2 a b)
      = rowMax z a := by
  rw [Cert.LibRowReduce.stat_bcast_apply, Cert.LibRowReduce.max_row2]
  rfl

/-- The kernel's log-softmax of a block at an entry. -/
theorem kernel_logSoftmax_apply {A B : Nat} (z : FVec Ideal ⟨2, ![A, B]⟩ .f32)
    (h : (⟨2, ![A, B]⟩ : Shape).Reduces [1] ⟨1, ![A]⟩) (hφ : FKind.Formats FTy.f32)
    (hmax : (0xFF800000#32 : BitVec 32) = 0xFF800000#32) (hadd : (0x00000000#32 : BitVec 32) = 0x00000000#32)
    (hc : (⟨1, ![A]⟩ : Shape).ShapeCasts ⟨2, ![A, 1]⟩) (hb : (⟨2, ![A, 1]⟩ : Shape).Broadcasts ⟨2, ![A, B]⟩)
    (a : Fin A) (b : Fin B) :
    subf (subf z (broadcastTo ⟨2, ![A, B]⟩ (shapeCast ⟨2, ![A, 1]⟩ (multiReduction .maximumf [1] ⟨1, ![A]⟩ z 0xFF800000#32 h hφ hmax) hc) hb))
        (broadcastTo ⟨2, ![A, B]⟩
          (log (shapeCast ⟨2, ![A, 1]⟩
            (multiReduction .add [1] ⟨1, ![A]⟩
              (exp (subf z (broadcastTo ⟨2, ![A, B]⟩ (shapeCast ⟨2, ![A, 1]⟩ (multiReduction .maximumf [1] ⟨1, ![A]⟩ z 0xFF800000#32 h hφ hmax) hc) hb)))
              0x00000000#32 h hφ hadd) hc)) hb) (ix2 a b)
      = rowLogSoftmax z (ix2 a b) := by
  have hm : ∀ k : Fin B,
      broadcastTo ⟨2, ![A, B]⟩ (shapeCast ⟨2, ![A, 1]⟩ (multiReduction .maximumf [1] ⟨1, ![A]⟩ z 0xFF800000#32 h hφ hmax) hc) hb (ix2 a k)
        = rowMax z a := fun k => kernel_rowMax_apply z h hφ hmax hc hb a k
  rw [subf_apply, subf_apply, hm b, Cert.LibOuterSum.bcast_col_apply]
  show (z (ix2 a b) - rowMax z a) - Ideal.log (shapeCast ⟨2, ![A, 1]⟩ _ hc (ix2 a (⟨0, Nat.one_pos⟩ : Fin 1))) = _
  rw [Cert.LibOuterSum.col_of_vec_apply, Cert.LibRowReduce.sum_row2, rowLogSoftmax_ix2]
  unfold rowLogSoftmaxAt
  refine congrArg (fun s => (z (ix2 a b) - rowMax z a) - Ideal.log s) (Finset.sum_congr rfl fun k _ => ?_)
  show Ideal.exp (z (ix2 a k) - _) = _
  rw [hm k]

/-! ## The host's spelling -/

/-- A per-row value [A] broadcast through [A, 1] to [A, B] reads, at (a, b), the value of row a. -/
theorem host_stat_apply {A B : Nat} {α : Type} (v : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    broadcastInDim ⟨2, ![A, B]⟩ ![0, 1] h2 (broadcastInDim ⟨2, ![A, 1]⟩ ![0] h1 v) (ix2 a b) = v (ix1 a) := by
  refine (broadcastInDim_apply _ h2 _ (ix2 a b) (ix2 a (0 : Fin 1)) fun d => ?_).trans
    (broadcastInDim_apply _ h1 v (ix2 a (0 : Fin 1)) (ix1 a) fun d => ?_)
  · match d with
    | ⟨0, _⟩ =>
      show a.val = if A = 1 then 0 else a.val
      split
      · have := a.isLt; omega
      · rfl
    | ⟨1, _⟩ =>
      show (0 : Nat) = if (1 : Nat) = 1 then 0 else b.val
      rfl
  · match d with
    | ⟨0, _⟩ =>
      show a.val = if A = 1 then 0 else a.val
      split
      · have := a.isLt; omega
      · rfl

/-- The host's row maximum, the greater of -∞ and the fold from -∞, is the fold. -/
theorem host_rowMax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![]) (a : Fin A) :
    maximumf (broadcastInDim ⟨1, ![A]⟩ ![] h0 (constant (F := Ideal) ⟨0, ![]⟩ .f32 0xFF800000#32))
        (Host.reduce FloatOps.maximumf z (constant (F := Ideal) ⟨0, ![]⟩ .f32 0xFF800000#32) hR hu) (ix1 a)
      = rowMax z a := by
  show max (broadcastInDim ⟨1, ![A]⟩ ![] h0 (constant (F := Ideal) ⟨0, ![]⟩ .f32 0xFF800000#32) (ix1 a))
      (Host.reduce (max : EReal → EReal → EReal) z (constant (F := Ideal) ⟨0, ![]⟩ .f32 0xFF800000#32) hR hu (ix1 a)) = _
  rw [Cert.Lib.FoldLast.hostReduce_last2 (max : EReal → EReal → EReal) z _ hR h hu a,
    broadcastInDim_apply _ h0 _ (ix1 a) ix0 fun d => d.elim0]
  show max (Ideal.ofBits .f32 0xFF800000#32) ((Finset.univ : Finset (Fin B)).fold max (Ideal.ofBits .f32 0xFF800000#32) _) = _
  rw [Cert.LibRowReduce.ofBits_neg_inf_f32, max_eq_right bot_le]
  rfl

/-- The host's log-softmax of an array at an entry. -/
theorem host_logSoftmax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    subf (subf z (broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu)))))
        (broadcastInDim ⟨2, ![A, B]⟩ ![0, 1] h2
          (Host.log (broadcastInDim ⟨2, ![A, 1]⟩ ![0] h1
            (Host.reduceAdd
              (Host.exp (subf z (broadcastInDim ⟨2, ![A, B]⟩ ![0, 1] h2 (broadcastInDim ⟨2, ![A, 1]⟩ ![0] h1
                (maximumf (broadcastInDim ⟨1, ![A]⟩ ![] h0 (constant (F := Ideal) ⟨0, ![]⟩ .f32 0xFF800000#32))
                  (Host.reduce FloatOps.maximumf z (constant (F := Ideal) ⟨0, ![]⟩ .f32 0xFF800000#32) hR hu))))))
              (constant (F := Ideal) ⟨0, ![]⟩ .f32 0x00000000#32) hR hu)))) (ix2 a b)
      = rowLogSoftmax z (ix2 a b) := by
  have hm : ∀ k : Fin B,
      broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu))) (ix2 a k)
        = rowMax z a := fun k => (host_stat_apply _ h1 h2 a k).trans (host_rowMax_apply z hR h hu h0 a)
  rw [subf_apply, subf_apply, hm b]
  rw [broadcastInDim_apply (s := ⟨2, ![A, 1]⟩) (t := ⟨2, ![A, B]⟩) ![0, 1] h2 _ (ix2 a b) (ix2 a (0 : Fin 1)) fun d => by
    match d with
    | ⟨0, _⟩ =>
      show a.val = if A = 1 then 0 else a.val
      split
      · have := a.isLt; omega
      · rfl
    | ⟨1, _⟩ =>
      show (0 : Nat) = if (1 : Nat) = 1 then 0 else b.val
      rfl]
  simp only [Host.log]
  rw [broadcastInDim_apply (s := ⟨1, ![A]⟩) (t := ⟨2, ![A, 1]⟩) ![0] h1 _ (ix2 a (0 : Fin 1)) (ix1 a) fun d => by
    match d with
    | ⟨0, _⟩ =>
      show a.val = if A = 1 then 0 else a.val
      split
      · have := a.isLt; omega
      · rfl]
  show (z (ix2 a b) - rowMax z a) - Ideal.log (Ideal.hostReduceAdd hR _ (Ideal.ofBits .f32 0x00000000#32) (ix1 a)) = _
  rw [Ideal.hostReduceAdd_single hR h, Ideal.ofBits_zero_f32, zero_add, rowLogSoftmax_ix2]
  unfold rowLogSoftmaxAt
  refine congrArg (fun s => (z (ix2 a b) - rowMax z a) - Ideal.log s) (Finset.sum_congr rfl fun k _ => ?_)
  rw [Cert.Lib.FoldLast.lift_last2 h a k]
  show Ideal.exp (z (ix2 a k) - _) = _
  rw [hm k]

end Cert.LibLogSoftmax

end
-- ==== Proof.GraphConv.lean ====
/-
  A two-layer graph convolution with a dense, row-normalised adjacency, as functions of extended reals.

      P   = x · W₁                                   (features projected)
      Q   = max(adj · P + b₁, 0) · W₂                (first layer, then the second layer's projection)
      z   = adj · Q + b₂                             (second layer's logits)
      out = rowLogSoftmax z                          (each row's logits minus the log of the row's sum of exponentials)

  Every matrix product is the plain sum over the shared axis, `(A · B)(p, q) = ∑ₖ A(p, k) · B(k, q)`; a bias is given as
  the one-row matrix `[1, N]` and read at `(0, q)`. The zero that the rectifier compares with is kept as the 32-bit
  zero word: both programs spell it with that word, so it is never evaluated.

  Each entry of `Q` and of `out` depends on ONE row of `adj` only (`layer1_row`, `logits_row`): a block of rows of the
  result is the same function of the matching block of rows of `adj`, which is what lets a kernel compute the
  result a block of rows at a time.
-/
import Idealize.ShloMosaic.PureOps.Ideal.Laws
import Idealize.ShloMosaic.Lib.ValueIdx
import proofs.«164380_g25151328485548_cont_9to1_1866_6_alg».proof.Proof.LibLogSoftmax

noncomputable section

namespace Cert.GraphConv

open Idealize.ShloMosaic Idealize.ShloMosaic.ValueIdx
open Cert.LibLogSoftmax (Arr rowLogSoftmax rowLogSoftmaxAt)

/-- The zero the rectifier compares with, as both programs spell it. -/
abbrev zeroW : EReal := Ideal.ofBits .f32 0x00000000#32

/-- The matrix product: the sum over the shared axis. -/
def prod {M K N : Nat} (A : Arr M K) (B : Arr K N) : Arr M N :=
  fun i => ∑ k : Fin K, A (ix2 (i 0) k) * B (ix2 k (i 1))

theorem prod_ix2 {M K N : Nat} (A : Arr M K) (B : Arr K N) (p : Fin M) (q : Fin N) :
    prod A B (ix2 p q) = ∑ k : Fin K, A (ix2 p k) * B (ix2 k q) := rfl

/-- One entry of the first layer followed by the second projection, from ONE row `r` of the adjacency:
    `∑ₑ max(∑ₖ r(k) · P(k, e) + b(0, e), 0) · W(e, q)`. -/
def layer1At {n h c : Nat} (r : Fin n → EReal) (P : Arr n h) (b : Arr 1 h) (W : Arr h c) (q : Fin c) : EReal :=
  ∑ e : Fin h, max (∑ k : Fin n, r k * P (ix2 k e) + b (ix2 (0 : Fin 1) e)) zeroW * W (ix2 e q)

/-- `Q = max(adj · P + b, 0) · W`. -/
def layer1 {m n h c : Nat} (adj : Arr m n) (P : Arr n h) (b : Arr 1 h) (W : Arr h c) : Arr m c :=
  fun i => layer1At (fun k => adj (ix2 (i 0) k)) P b W (i 1)

theorem layer1_ix2 {m n h c : Nat} (adj : Arr m n) (P : Arr n h) (b : Arr 1 h) (W : Arr h c) (p : Fin m) (q : Fin c) :
    layer1 adj P b W (ix2 p q) = layer1At (fun k => adj (ix2 p k)) P b W q := rfl

/-- `z = adj · Q + b`. -/
def logits {m n c : Nat} (adj : Arr m n) (Q : Arr n c) (b : Arr 1 c) : Arr m c :=
  fun i => ∑ k : Fin n, adj (ix2 (i 0) k) * Q (ix2 k (i 1)) + b (ix2 (0 : Fin 1) (i 1))

theorem logits_ix2 {m n c : Nat} (adj : Arr m n) (Q : Arr n c) (b : Arr 1 c) (p : Fin m) (q : Fin c) :
    logits adj Q b (ix2 p q) = ∑ k : Fin n, adj (ix2 p k) * Q (ix2 k q) + b (ix2 (0 : Fin 1) q) := rfl

/-- A row of the logits depends on that row of the adjacency only: two adjacencies (of any numbers of rows) that
    agree on row `p` of the one and row `p'` of the other give the same row of logits. -/
theorem logits_row {m m' n c : Nat} (adj : Arr m n) (adj' : Arr m' n) (Q : Arr n c) (b : Arr 1 c) (p : Fin m) (p' : Fin m')
    (h : ∀ k : Fin n, adj (ix2 p k) = adj' (ix2 p' k)) (q : Fin c) :
    logits adj Q b (ix2 p q) = logits adj' Q b (ix2 p' q) := by
  rw [logits_ix2, logits_ix2]
  exact congrArg (· + b (ix2 (0 : Fin 1) q)) (Finset.sum_congr rfl fun k _ => by rw [h k])

/-- The same for the first layer. -/
theorem layer1_row {m m' n h c : Nat} (adj : Arr m n) (adj' : Arr m' n) (P : Arr n h) (b : Arr 1 h) (W : Arr h c)
    (p : Fin m) (p' : Fin m') (hr : ∀ k : Fin n, adj (ix2 p k) = adj' (ix2 p' k)) (q : Fin c) :
    layer1 adj P b W (ix2 p q) = layer1 adj' P b W (ix2 p' q) := by
  rw [layer1_ix2, layer1_ix2]
  exact congrArg (fun r => layer1At r P b W q) (funext hr)

/-- The second layer: the row-wise log-softmax of the logits. -/
def layer2 {m n c : Nat} (adj : Arr m n) (Q : Arr n c) (b : Arr 1 c) : Arr m c := rowLogSoftmax (logits adj Q b)

/-- A row of the second layer depends on that row of the adjacency only. -/
theorem layer2_row {m m' n c : Nat} (adj : Arr m n) (adj' : Arr m' n) (Q : Arr n c) (b : Arr 1 c) (p : Fin m) (p' : Fin m')
    (h : ∀ k : Fin n, adj (ix2 p k) = adj' (ix2 p' k)) (q : Fin c) :
    layer2 adj Q b (ix2 p q) = layer2 adj' Q b (ix2 p' q) :=
  Cert.LibLogSoftmax.rowLogSoftmaxAt_congr p p' q fun k => logits_row adj adj' Q b p p' h k

/-- A vector `[N]` as the one-row matrix `[1, N]`. -/
def asRow {N : Nat} (v : (⟨1, ![N]⟩ : Shape).Idx → EReal) : Arr 1 N := fun i => v (ix1 (i 1))

theorem asRow_ix2 {N : Nat} (v : (⟨1, ![N]⟩ : Shape).Idx → EReal) (q : Fin N) : asRow v (ix2 (0 : Fin 1) q) = v (ix1 q) := rfl

/-- The whole network. -/
def network {n f h c : Nat} (x : Arr n f) (adj : Arr n n) (W₁ : Arr f h) (b₁ : (⟨1, ![h]⟩ : Shape).Idx → EReal)
    (W₂ : Arr h c) (b₂ : (⟨1, ![c]⟩ : Shape).Idx → EReal) : Arr n c :=
  layer2 adj (layer1 adj (prod x W₁) (asRow b₁) W₂) (asRow b₂)

end Cert.GraphConv

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Payload.lean ====
/-
  What each of the three kernel bodies stores, read at one entry of the stored block, at the extended reals.

  A change of float format is the identity there, and a product accumulated into the zero array is the plain sum over the
  shared axis. So, at row `p` and column `q` of the block a body stores:
    * the projection body stores `(x · W)(p, q)` of its block of rows of `x`;
    * the first-layer body stores `(max(a · P + b, 0) · W)(p, q)` of its block `a` of rows of the adjacency;
    * the second-layer body stores the row-wise log-softmax of `a · Q + b` at `(p, q)`.
  A bias arrives as the one-row matrix `[1, N]` and is repeated over the rows of the block.
-/
import proofs.«164380_g25151328485548_cont_9to1_1866_6_alg».proof.Proof.Gen.KernelIdeal.Skeleton
import proofs.«164380_g25151328485548_cont_9to1_1866_6_alg».proof.Proof.GraphConv
import proofs.«164380_g25151328485548_cont_9to1_1866_6_alg».proof.Proof.LibDotSum
import proofs.«164380_g25151328485548_cont_9to1_1866_6_alg».proof.Proof.LibLogSoftmax
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.GraphConv
open Cert.LibLogSoftmax (Arr rowLogSoftmax)

/-- A product of an `M × K` by a `K × N` array accumulated into the zero array, at `(p, q)`: the sum over `k` of
    `A (p, k) · B (k, q)`. The six hypotheses on the record of dimension numbers compute on a given record. -/
theorem matmul_zero_ix2 {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ φ₁) (B : FVec Ideal ⟨2, ![K, N]⟩ φ₂) (p : Fin M) (q : Fin N) :
    matmul D none A B (constant (F := Ideal) ⟨2, ![M, N]⟩ .f32 0x00000000#32) (ix2 p q) = prod A B (ix2 p q) :=
  (Ideal.matmul_constant_zero_apply D none A B (ix2 p q)).trans (Cert.LibDotSum.sum_dot D hr hs hl0 hl1 hr0 hr1 A B p q)

/-- A one-row matrix `[1, N]` repeated over `M` rows reads, at `(r, e)`, its entry `(0, e)`. -/
theorem rowRepeat_apply {M N : Nat} {α : Type} (b : (⟨2, ![1, N]⟩ : Shape).Idx → α)
    (h : (⟨2, ![1, N]⟩ : Shape).Broadcasts ⟨2, ![M, N]⟩) (r : Fin M) (e : Fin N) :
    broadcastTo ⟨2, ![M, N]⟩ b h (ix2 r e) = b (ix2 (0 : Fin 1) e) :=
  broadcastTo_apply b h (ix2 r e) (ix2 (0 : Fin 1) e) fun a => by
    match a with
    | ⟨0, _⟩ => rfl
    | ⟨1, _⟩ =>
      show e.val = if N = 1 then 0 else e.val
      split
      · have := e.isLt; omega
      · rfl

/-! ## The projection body -/

/-- The projection body stores `x · W` of its blocks. -/
theorem pay0_apply (x0 : Vec Ideal S1000x512 .bf16) (x1 : Vec Ideal S512x512 .bf16) (p : Fin 1000) (q : Fin 512) :
    k0_pay1 (F := Ideal) x0 x1 (ix2 p q) = prod x0 x1 (ix2 p q) := by
  unfold k0_pay1
  show matmul dot_S1000x512_S512x512_S1000x512_1_0_0_1_n_n none (shapeCast S1000x512 x0 shapeCasts_S1000x512_S1000x512)
      (shapeCast S512x512 x1 shapeCasts_S512x512_S512x512) (constant (F := Ideal) S1000x512 .f32 0x00000000#32) (ix2 p q) = _
  rw [shapeCast_self, shapeCast_self]
  exact matmul_zero_ix2 _ rfl rfl (fun _ _ => rfl) (fun _ _ => rfl) (fun _ _ => rfl) (fun _ _ => rfl) x0 x1 p q

/-! ## The first-layer body -/

/-- The first-layer body stores `max(a · P + b, 0) · W` of its blocks. -/
theorem pay1_apply (x0 : Vec Ideal S400x10000 .bf16) (x1 : Vec Ideal S10000x512 .bf16) (x2 : Vec Ideal S1x512 .f32)
    (x3 : Vec Ideal S512x64 .bf16) (p : Fin 400) (q : Fin 64) :
    k1_pay1 (F := Ideal) x0 x1 x2 x3 (ix2 p q) = layer1 x0 x1 x2 x3 (ix2 p q) := by
  unfold k1_pay1
  show matmul dot_S400x512_S512x64_S400x64_1_0_0_1_n_n none
      (maximumf
        (addf
          (matmul dot_S400x10000_S10000x512_S400x512_1_0_0_1_n_n none (shapeCast S400x10000 x0 shapeCasts_S400x10000_S400x10000)
            (shapeCast S10000x512 x1 shapeCasts_S10000x512_S10000x512) (constant (F := Ideal) S400x512 .f32 0x00000000#32))
          (broadcastTo S400x512 (shapeCast S1x512 x2 shapeCasts_S1x512_S1x512) broadcasts_S1x512_S400x512))
        (broadcast S400x512 (Scalar.ofBits (F := Ideal) .f32 0x00000000#32)))
      (shapeCast S512x64 x3 shapeCasts_S512x64_S512x64) (constant (F := Ideal) S400x64 .f32 0x00000000#32) (ix2 p q) = _
  rw [shapeCast_self, shapeCast_self, shapeCast_self, shapeCast_self]
  refine (matmul_zero_ix2 _ rfl rfl (fun _ _ => rfl) (fun _ _ => rfl) (fun _ _ => rfl) (fun _ _ => rfl) _ x3 p q).trans ?_
  rw [prod_ix2, layer1_ix2]
  unfold layer1At
  refine Finset.sum_congr rfl fun e _ => ?_
  refine congrArg (· * x3 (ix2 e q)) ?_
  rw [maximumf_apply, addf_apply, broadcast_apply, rowRepeat_apply,
    matmul_zero_ix2 _ rfl rfl (fun _ _ => rfl) (fun _ _ => rfl) (fun _ _ => rfl) (fun _ _ => rfl) x0 x1 p e, prod_ix2]
  rfl

/-! ## The second-layer body -/

/-- The logits of a block: `a · Q + b`, the bias repeated over the block's rows. -/
theorem logits_block_apply (x0 : FVec Ideal S400x10000 .bf16) (x1 : FVec Ideal S10000x64 .bf16) (x2 : FVec Ideal S1x64 .f32)
    (p : Fin 400) (q : Fin 64) :
    addf (matmul dot_S400x10000_S10000x64_S400x64_1_0_0_1_n_n none x0 x1 (constant (F := Ideal) S400x64 .f32 0x00000000#32))
        (broadcastTo S400x64 x2 broadcasts_S1x64_S400x64) (ix2 p q)
      = logits x0 x1 x2 (ix2 p q) := by
  rw [addf_apply, rowRepeat_apply,
    matmul_zero_ix2 _ rfl rfl (fun _ _ => rfl) (fun _ _ => rfl) (fun _ _ => rfl) (fun _ _ => rfl) x0 x1 p q, prod_ix2, logits_ix2]

/-- The second-layer body stores the row-wise log-softmax of `a · Q + b` of its blocks. -/
theorem pay2_apply (x0 : Vec Ideal S400x10000 .bf16) (x1 : Vec Ideal S10000x64 .bf16) (x2 : Vec Ideal S1x64 .f32)
    (p : Fin 400) (q : Fin 64) :
    k2_pay1 (F := Ideal) x0 x1 x2 (ix2 p q) = layer2 x0 x1 x2 (ix2 p q) := by
  unfold k2_pay1
  have hz : (shapeCast S400x10000 x0 shapeCasts_S400x10000_S400x10000 = x0) ∧ (shapeCast S10000x64 x1 shapeCasts_S10000x64_S10000x64 = x1)
      ∧ (shapeCast S1x64 x2 shapeCasts_S1x64_S1x64 = x2) := ⟨shapeCast_self _ _, shapeCast_self _ _, shapeCast_self _ _⟩
  dsimp only
  rw [hz.1, hz.2.1, hz.2.2]
  refine (Cert.LibLogSoftmax.kernel_logSoftmax_apply
    (addf (matmul (φ₁ := .bf16) (φ₂ := .bf16) dot_S400x10000_S10000x64_S400x64_1_0_0_1_n_n none x0 x1 (constant (F := Ideal) S400x64 .f32 0x00000000#32))
      (broadcastTo S400x64 x2 broadcasts_S1x64_S400x64))
    reduces_S400x64_S400 (.inl rfl) rfl rfl shapeCasts_S400_S400x1 broadcasts_S400x1_S400x64 p q).trans ?_
  unfold layer2
  exact Cert.LibLogSoftmax.rowLogSoftmaxAt_congr p p q fun k => logits_block_apply x0 x1 x2 p k

end Cert.KernelIdeal.Body

end
-- ==== Proof.Region0.lean ====
/-
  The projection region: after it, its output array is `x · W₁` of the arrays it was entered with.

  The grid has ten points; point `t` reads rows `1000·t … 1000·t + 999` of `x` (all 512 columns) and the whole of `W₁`,
  and writes back rows `1000·t … 1000·t + 999` of the output. An entry of a product depends on one row of the left
  factor, so the block written at point `t` is the same block of the product of the whole arrays; the ten blocks of rows
  tile the output, so the array ends as that product. Stated for ANY contents `V` the region is entered with.
-/
import proofs.«164380_g25151328485548_cont_9to1_1866_6_alg».proof.Proof.Gen.KernelIdeal.Frame
import proofs.«164380_g25151328485548_cont_9to1_1866_6_alg».proof.Proof.Payload
import Idealize.ShloMosaic.Lib.Pipeline.Value
import Idealize.ShloMosaic.Lib.ValueIdx

noncomputable section

namespace Cert.KernelIdeal.Region0

open Idealize.ShloMosaic Idealize.ShloMosaic.TcCoe Idealize.ShloMosaic.ValueIdx Idealize.SL.Sem
open Cert.KernelIdeal Cert.KernelIdeal.Gen Cert.GraphConv
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index of each window at point `t`: the row-blocked windows are at block row `t`, the resident one at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := lt_of_lt_of_eq t.isLt N_0

/-- Row `p` of the block of `x` at point `t` is row `1000·t + p` of `x`. -/
theorem rows_apply (c : Dev nD) (t : Fin cfg0.N) (p : Fin 1000) (k : Fin 512) :
    iblk0 V c 0 t (ix2 p k) = V c main_v2 (ix2 (⟨t.val * 1000 + p.val, by have := t_lt t; omega⟩ : Fin 10000) k) := by
  show V c main_v2 (((cfg0.win 0).blk t).view.emb (ix2 p k)) = V c main_v2 _
  refine congrArg (V c main_v2) (funext fun a => Fin.ext ?_)
  obtain ⟨e0, e1, -⟩ := index_facts t
  match a with
  | ⟨0, _⟩ => show win0_0.index t (0 : Fin 2) * 1000 + 1 * p.val = t.val * 1000 + p.val; omega
  | ⟨1, _⟩ => show win0_0.index t (1 : Fin 2) * 512 + 1 * k.val = k.val; omega

/-- The resident window's block is the whole of `W₁`. -/
theorem resident_apply (c : Dev nD) (t : Fin cfg0.N) (k : Fin 512) (q : Fin 512) :
    iblk0 V c 1 t (ix2 k q) = V c main_v4 (ix2 k q) := by
  show V c main_v4 (((cfg0.win 1).blk t).view.emb (ix2 k q)) = V c main_v4 _
  refine congrArg (V c main_v4) (funext fun a => Fin.ext ?_)
  obtain ⟨-, -, e0, e1, -⟩ := index_facts t
  match a with
  | ⟨0, _⟩ => show win0_1.index t (0 : Fin 2) * 512 + 1 * k.val = k.val; omega
  | ⟨1, _⟩ => show win0_1.index t (1 : Fin 2) * 512 + 1 * q.val = q.val; omega

/-- Where entry `(p, q)` of the output block at point `t` lands in the output array. -/
theorem out_emb (t : Fin cfg0.N) (p : Fin 1000) (q : Fin 512) :
    ((cfg0.win 2).blk t).view.emb (ix2 p q) = ix2 (⟨t.val * 1000 + p.val, by have := t_lt t; omega⟩ : Fin 10000) q := by
  funext a
  apply Fin.ext
  obtain ⟨-, -, -, -, e0, e1⟩ := index_facts t
  match a with
  | ⟨0, _⟩ => show win0_2.index t (0 : Fin 2) * 1000 + 1 * p.val = t.val * 1000 + p.val; omega
  | ⟨1, _⟩ => show win0_2.index t (1 : Fin 2) * 512 + 1 * q.val = q.val; omega

/-- What point `t` writes back is block `t` of the product of the whole arrays. -/
theorem flushed_eq (c : Dev nD) (t : Fin cfg0.N) :
    (dat0 V c).flushed 2 t = ((cfg0.win 2).blk t).view.read (Elt Ideal) (prod (V c main_v2) (V c main_v4)) := by
  show (cfg0.win 2).cut (grid0.coords t) ((dat0 V c).after 2 t) = _
  rw [after0_2]
  unfold out0_2
  rw [View.canon_unit_zero origin]
  simp only [View.ld_unit_zero (S := S1000x512) origin, View.ld_unit_zero (S := S512x512) origin]
  funext j
  obtain ⟨p, q, rfl⟩ : ∃ (p : Fin 1000) (q : Fin 512), j = ix2 p q := ⟨j 0, j 1, eq_ix2 j⟩
  show k0_pay1 (iblk0 V c 0 t) (iblk0 V c 1 t) (ix2 p q) = prod (V c main_v2) (V c main_v4) (((cfg0.win 2).blk t).view.emb (ix2 p q))
  rw [out_emb t p q]
  refine (Cert.KernelIdeal.Body.pay0_apply (iblk0 V c 0 t) (iblk0 V c 1 t) p q).trans ?_
  rw [prod_ix2, prod_ix2]
  exact Finset.sum_congr rfl fun k _ => congrArg₂ (· * ·) (rows_apply V c t p k) (resident_apply V c t k q)

/-- An index of the output array is in point `t`'s block iff each coordinate is in the block's range on its axis. -/
theorem mem_blk (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v6).slice (win0_2.rect t)).set ↔ _
  rw [View.set_slice_whole, Rect.mem_set_unit]
  exact Iff.rfl

/-- The ten blocks of rows cover the output: row `r` is in the block of point `r / 1000`. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  let t : Fin cfg0.N := ⟨(i 0).val / 1000, lt_of_lt_of_eq (by omega : (i 0).val / 1000 < 10) N_0.symm⟩
  obtain ⟨-, -, -, -, e0, e1⟩ := index_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- THE OUTPUT ARRAY after the region: the product of the arrays the region was entered with. -/
theorem final (c : Dev nD) : (dat0 V c).arrAt 2 cfg0.N = prod (V c main_v2) (V c main_v4) :=
  (dat0 V c).arrAt_eq_of_cover 2 (prod (V c main_v2) (V c main_v4)) (fun t _ => flushed_eq V c t) (cover)

end Cert.KernelIdeal.Region0

end
-- ==== Proof.Region1.lean ====
/-
  The first-layer region: after it, its output array is `max(adj · P + b₁, 0) · W₂` of the arrays it was entered with.

  The grid has twenty-five points; point `t` reads rows `400·t … 400·t + 399` of the adjacency (all 10000 columns) and
  the whole of `P`, of the bias row and of `W₂`, and writes back rows `400·t … 400·t + 399` of the output. An entry
  of the layer depends on one row of the adjacency only, so the block written at point `t` is the same block of the layer
  of the whole arrays; the twenty-five blocks of rows tile the output. Stated for ANY contents `V` the region is entered with.
-/
import proofs.«164380_g25151328485548_cont_9to1_1866_6_alg».proof.Proof.Gen.KernelIdeal.Frame
import proofs.«164380_g25151328485548_cont_9to1_1866_6_alg».proof.Proof.Payload
import Idealize.ShloMosaic.Lib.Pipeline.Value
import Idealize.ShloMosaic.Lib.ValueIdx

noncomputable section

namespace Cert.KernelIdeal.Region1

open Idealize.ShloMosaic Idealize.ShloMosaic.TcCoe Idealize.ShloMosaic.ValueIdx Idealize.SL.Sem
open Cert.KernelIdeal Cert.KernelIdeal.Gen Cert.GraphConv
open Idealize.ShloMosaic.Pipeline (Dat)
open Cert.LibLogSoftmax (Arr)

variable (V : (c : Dev nD) → (b : Ref sig .tc) → Buf (Elt Ideal) ((c : Thread nD τ).loc b))

theorem origin : (![0, 0] : Fin 2 → Nat) = fun _ => 0 := funext fun a => by fin_cases a <;> rfl

/-- The layer at one entry from a block of rows and from the whole arrays: equal when the rows agree and the other three
    arrays are the same. -/
theorem layer1_block {m m' n h c : Nat} (adj : Arr m n) (adj' : Arr m' n) (P P' : Arr n h) (b b' : Arr 1 h) (W W' : Arr h c)
    (p : Fin m) (p' : Fin m') (hr : ∀ k : Fin n, adj (ix2 p k) = adj' (ix2 p' k)) (hP : P = P') (hb : b = b') (hW : W = W')
    (q : Fin c) : layer1 adj P b W (ix2 p q) = layer1 adj' P' b' W' (ix2 p' q) := by
  subst hP hb hW
  exact layer1_row adj adj' P b W p p' hr q

/-- The block index of each window at point `t`: the row-blocked windows are at block row `t`, the resident ones at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 25 := lt_of_lt_of_eq t.isLt N_1

/-- Row `p` of the block of the adjacency at point `t` is row `400·t + p` of the adjacency. -/
theorem rows_apply (c : Dev nD) (t : Fin cfg1.N) (p : Fin 400) (k : Fin 10000) :
    iblk1 V c 0 t (ix2 p k) = V c main_v3 (ix2 (⟨t.val * 400 + p.val, by have := t_lt t; omega⟩ : Fin 10000) k) := by
  show V c main_v3 (((cfg1.win 0).blk t).view.emb (ix2 p k)) = V c main_v3 _
  refine congrArg (V c main_v3) (funext fun a => Fin.ext ?_)
  obtain ⟨e0, e1, -⟩ := index_facts t
  match a with
  | ⟨0, _⟩ => show win1_0.index t (0 : Fin 2) * 400 + 1 * p.val = t.val * 400 + p.val; omega
  | ⟨1, _⟩ => show win1_0.index t (1 : Fin 2) * 10000 + 1 * k.val = k.val; omega

/-- The resident blocks are the whole arrays. -/
theorem resident_P (c : Dev nD) (t : Fin cfg1.N) : (iblk1 V c 1 t : Arr 10000 512) = V c main_v6 := by
  funext j
  obtain ⟨k, e, rfl⟩ : ∃ (k : Fin 10000) (e : Fin 512), j = ix2 k e := ⟨j 0, j 1, eq_ix2 j⟩
  show V c main_v6 (((cfg1.win 1).blk t).view.emb (ix2 k e)) = V c main_v6 _
  refine congrArg (V c main_v6) (funext fun a => Fin.ext ?_)
  obtain ⟨-, -, e0, e1, -⟩ := index_facts t
  match a with
  | ⟨0, _⟩ => show win1_1.index t (0 : Fin 2) * 10000 + 1 * k.val = k.val; omega
  | ⟨1, _⟩ => show win1_1.index t (1 : Fin 2) * 512 + 1 * e.val = e.val; omega

theorem resident_b (c : Dev nD) (t : Fin cfg1.N) : (iblk1 V c 2 t : Arr 1 512) = V c main_v0 := by
  funext j
  obtain ⟨k, e, rfl⟩ : ∃ (k : Fin 1) (e : Fin 512), j = ix2 k e := ⟨j 0, j 1, eq_ix2 j⟩
  show V c main_v0 (((cfg1.win 2).blk t).view.emb (ix2 k e)) = V c main_v0 _
  refine congrArg (V c main_v0) (funext fun a => Fin.ext ?_)
  obtain ⟨-, -, -, -, e0, e1, -⟩ := index_facts t
  match a with
  | ⟨0, _⟩ => show win1_2.index t (0 : Fin 2) * 1 + 1 * k.val = k.val; omega
  | ⟨1, _⟩ => show win1_2.index t (1 : Fin 2) * 512 + 1 * e.val = e.val; omega

theorem resident_W (c : Dev nD) (t : Fin cfg1.N) : (iblk1 V c 3 t : Arr 512 64) = V c main_v5 := by
  funext j
  obtain ⟨k, e, rfl⟩ : ∃ (k : Fin 512) (e : Fin 64), j = ix2 k e := ⟨j 0, j 1, eq_ix2 j⟩
  show V c main_v5 (((cfg1.win 3).blk t).view.emb (ix2 k e)) = V c main_v5 _
  refine congrArg (V c main_v5) (funext fun a => Fin.ext ?_)
  obtain ⟨-, -, -, -, -, -, e0, e1, -⟩ := index_facts t
  match a with
  | ⟨0, _⟩ => show win1_3.index t (0 : Fin 2) * 512 + 1 * k.val = k.val; omega
  | ⟨1, _⟩ => show win1_3.index t (1 : Fin 2) * 64 + 1 * e.val = e.val; omega

/-- Where entry `(p, q)` of the output block at point `t` lands in the output array. -/
theorem out_emb (t : Fin cfg1.N) (p : Fin 400) (q : Fin 64) :
    ((cfg1.win 4).blk t).view.emb (ix2 p q) = ix2 (⟨t.val * 400 + p.val, by have := t_lt t; omega⟩ : Fin 10000) q := by
  funext a
  apply Fin.ext
  obtain ⟨-, -, -, -, -, -, -, -, e0, e1⟩ := index_facts t
  match a with
  | ⟨0, _⟩ => show win1_4.index t (0 : Fin 2) * 400 + 1 * p.val = t.val * 400 + p.val; omega
  | ⟨1, _⟩ => show win1_4.index t (1 : Fin 2) * 64 + 1 * q.val = q.val; omega

/-- What point `t` writes back is block `t` of the layer of the whole arrays. -/
theorem flushed_eq (c : Dev nD) (t : Fin cfg1.N) :
    (dat1 V c).flushed 4 t = ((cfg1.win 4).blk t).view.read (Elt Ideal)
      (layer1 (V c main_v3) (V c main_v6) (V c main_v0) (V c main_v5)) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x512) origin,
    View.ld_unit_zero (S := S1x512) origin, View.ld_unit_zero (S := S512x64) origin]
  funext j
  obtain ⟨p, q, rfl⟩ : ∃ (p : Fin 400) (q : Fin 64), j = ix2 p q := ⟨j 0, j 1, eq_ix2 j⟩
  show k1_pay1 (iblk1 V c 0 t) (iblk1 V c 1 t) (iblk1 V c 2 t) (iblk1 V c 3 t) (ix2 p q)
    = layer1 (V c main_v3) (V c main_v6) (V c main_v0) (V c main_v5) (((cfg1.win 4).blk t).view.emb (ix2 p q))
  rw [out_emb t p q]
  refine (Cert.KernelIdeal.Body.pay1_apply (iblk1 V c 0 t) (iblk1 V c 1 t) (iblk1 V c 2 t) (iblk1 V c 3 t) p q).trans ?_
  exact layer1_block _ _ _ _ _ _ _ _ p _ (fun k => rows_apply V c t p k) (resident_P V c t) (resident_b V c t) (resident_W V c t) q

/-- An index of the output array is in point `t`'s block iff each coordinate is in the block's range on its axis. -/
theorem mem_blk (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v7).slice (win1_4.rect t)).set ↔ _
  rw [View.set_slice_whole, Rect.mem_set_unit]
  exact Iff.rfl

/-- The twenty-five blocks of rows cover the output: row `r` is in the block of point `r / 400`. -/
theorem cover (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  let t : Fin cfg1.N := ⟨(i 0).val / 400, lt_of_lt_of_eq (by omega : (i 0).val / 400 < 25) N_1.symm⟩
  obtain ⟨-, -, -, -, -, -, -, -, e0, e1⟩ := index_facts t
  have ht : t.val = (i 0).val / 400 := rfl
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- THE OUTPUT ARRAY after the region: the layer of the arrays the region was entered with. -/
theorem final (c : Dev nD) : (dat1 V c).arrAt 4 cfg1.N = layer1 (V c main_v3) (V c main_v6) (V c main_v0) (V c main_v5) :=
  (dat1 V c).arrAt_eq_of_cover 4 (layer1 (V c main_v3) (V c main_v6) (V c main_v0) (V c main_v5))
    (fun t _ => flushed_eq V c t) (cover)

end Cert.KernelIdeal.Region1

end
-- ==== Proof.Region2.lean ====
/-
  The second-layer region: after it, its output array is the row-wise log-softmax of `adj · Q + b₂` of the arrays it was
  entered with.

  The grid has twenty-five points; point `t` reads rows `400·t … 400·t + 399` of the adjacency (all 10000 columns) and
  the whole of `Q` and of the bias row, and writes back rows `400·t … 400·t + 399` of the output. A row of logits, and so
  a row of their log-softmax, depends on one row of the adjacency only, so the block written at point `t` is the same
  block of the layer of the whole arrays; the twenty-five blocks of rows tile the output. Stated for ANY contents `V`
  the region is entered with.
-/
import proofs.«164380_g25151328485548_cont_9to1_1866_6_alg».proof.Proof.Gen.KernelIdeal.Frame
import proofs.«164380_g25151328485548_cont_9to1_1866_6_alg».proof.Proof.Payload
import Idealize.ShloMosaic.Lib.Pipeline.Value
import Idealize.ShloMosaic.Lib.ValueIdx

noncomputable section

namespace Cert.KernelIdeal.Region2

open Idealize.ShloMosaic Idealize.ShloMosaic.TcCoe Idealize.ShloMosaic.ValueIdx Idealize.SL.Sem
open Cert.KernelIdeal Cert.KernelIdeal.Gen Cert.GraphConv
open Idealize.ShloMosaic.Pipeline (Dat)
open Cert.LibLogSoftmax (Arr)

variable (V : (c : Dev nD) → (b : Ref sig .tc) → Buf (Elt Ideal) ((c : Thread nD τ).loc b))

theorem origin : (![0, 0] : Fin 2 → Nat) = fun _ => 0 := funext fun a => by fin_cases a <;> rfl

/-- The layer at one entry from a block of rows and from the whole arrays: equal when the rows agree and the other two
    arrays are the same. -/
theorem layer2_block {m m' n c : Nat} (adj : Arr m n) (adj' : Arr m' n) (Q Q' : Arr n c) (b b' : Arr 1 c)
    (p : Fin m) (p' : Fin m') (hr : ∀ k : Fin n, adj (ix2 p k) = adj' (ix2 p' k)) (hQ : Q = Q') (hb : b = b')
    (q : Fin c) : layer2 adj Q b (ix2 p q) = layer2 adj' Q' b' (ix2 p' q) := by
  subst hQ hb
  exact layer2_row adj adj' Q b p p' hr q

/-- The block index of each window at point `t`: the row-blocked windows are at block row `t`, the resident ones at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 25 := lt_of_lt_of_eq t.isLt N_2

/-- Row `p` of the block of the adjacency at point `t` is row `400·t + p` of the adjacency. -/
theorem rows_apply (c : Dev nD) (t : Fin cfg2.N) (p : Fin 400) (k : Fin 10000) :
    iblk2 V c 0 t (ix2 p k) = V c main_v3 (ix2 (⟨t.val * 400 + p.val, by have := t_lt t; omega⟩ : Fin 10000) k) := by
  show V c main_v3 (((cfg2.win 0).blk t).view.emb (ix2 p k)) = V c main_v3 _
  refine congrArg (V c main_v3) (funext fun a => Fin.ext ?_)
  obtain ⟨e0, e1, -⟩ := index_facts t
  match a with
  | ⟨0, _⟩ => show win2_0.index t (0 : Fin 2) * 400 + 1 * p.val = t.val * 400 + p.val; omega
  | ⟨1, _⟩ => show win2_0.index t (1 : Fin 2) * 10000 + 1 * k.val = k.val; omega

/-- The resident blocks are the whole arrays. -/
theorem resident_Q (c : Dev nD) (t : Fin cfg2.N) : (iblk2 V c 1 t : Arr 10000 64) = V c main_v7 := by
  funext j
  obtain ⟨k, e, rfl⟩ : ∃ (k : Fin 10000) (e : Fin 64), j = ix2 k e := ⟨j 0, j 1, eq_ix2 j⟩
  show V c main_v7 (((cfg2.win 1).blk t).view.emb (ix2 k e)) = V c main_v7 _
  refine congrArg (V c main_v7) (funext fun a => Fin.ext ?_)
  obtain ⟨-, -, e0, e1, -⟩ := index_facts t
  match a with
  | ⟨0, _⟩ => show win2_1.index t (0 : Fin 2) * 10000 + 1 * k.val = k.val; omega
  | ⟨1, _⟩ => show win2_1.index t (1 : Fin 2) * 64 + 1 * e.val = e.val; omega

theorem resident_b (c : Dev nD) (t : Fin cfg2.N) : (iblk2 V c 2 t : Arr 1 64) = V c main_v1 := by
  funext j
  obtain ⟨k, e, rfl⟩ : ∃ (k : Fin 1) (e : Fin 64), j = ix2 k e := ⟨j 0, j 1, eq_ix2 j⟩
  show V c main_v1 (((cfg2.win 2).blk t).view.emb (ix2 k e)) = V c main_v1 _
  refine congrArg (V c main_v1) (funext fun a => Fin.ext ?_)
  obtain ⟨-, -, -, -, e0, e1, -⟩ := index_facts t
  match a with
  | ⟨0, _⟩ => show win2_2.index t (0 : Fin 2) * 1 + 1 * k.val = k.val; omega
  | ⟨1, _⟩ => show win2_2.index t (1 : Fin 2) * 64 + 1 * e.val = e.val; omega

/-- Where entry `(p, q)` of the output block at point `t` lands in the output array. -/
theorem out_emb (t : Fin cfg2.N) (p : Fin 400) (q : Fin 64) :
    ((cfg2.win 3).blk t).view.emb (ix2 p q) = ix2 (⟨t.val * 400 + p.val, by have := t_lt t; omega⟩ : Fin 10000) q := by
  funext a
  apply Fin.ext
  obtain ⟨-, -, -, -, -, -, e0, e1⟩ := index_facts t
  match a with
  | ⟨0, _⟩ => show win2_3.index t (0 : Fin 2) * 400 + 1 * p.val = t.val * 400 + p.val; omega
  | ⟨1, _⟩ => show win2_3.index t (1 : Fin 2) * 64 + 1 * q.val = q.val; omega

/-- What point `t` writes back is block `t` of the layer of the whole arrays. -/
theorem flushed_eq (c : Dev nD) (t : Fin cfg2.N) :
    (dat2 V c).flushed 3 t = ((cfg2.win 3).blk t).view.read (Elt Ideal)
      (layer2 (V c main_v3) (V c main_v7) (V c main_v1)) := by
  show (cfg2.win 3).cut (grid2.coords t) ((dat2 V c).after 3 t) = _
  rw [after2_3]
  unfold out2_3
  rw [View.canon_unit_zero origin]
  simp only [View.ld_unit_zero (S := S400x10000) origin, View.ld_unit_zero (S := S10000x64) origin,
    View.ld_unit_zero (S := S1x64) origin]
  funext j
  obtain ⟨p, q, rfl⟩ : ∃ (p : Fin 400) (q : Fin 64), j = ix2 p q := ⟨j 0, j 1, eq_ix2 j⟩
  show k2_pay1 (iblk2 V c 0 t) (iblk2 V c 1 t) (iblk2 V c 2 t) (ix2 p q)
    = layer2 (V c main_v3) (V c main_v7) (V c main_v1) (((cfg2.win 3).blk t).view.emb (ix2 p q))
  rw [out_emb t p q]
  refine (Cert.KernelIdeal.Body.pay2_apply (iblk2 V c 0 t) (iblk2 V c 1 t) (iblk2 V c 2 t) p q).trans ?_
  exact layer2_block _ _ _ _ _ _ p _ (fun k => rows_apply V c t p k) (resident_Q V c t) (resident_b V c t) q

/-- An index of the output array is in point `t`'s block iff each coordinate is in the block's range on its axis. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v8).slice (win2_3.rect t)).set ↔ _
  rw [View.set_slice_whole, Rect.mem_set_unit]
  exact Iff.rfl

/-- The twenty-five blocks of rows cover the output: row `r` is in the block of point `r / 400`. -/
theorem cover (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  let t : Fin cfg2.N := ⟨(i 0).val / 400, lt_of_lt_of_eq (by omega : (i 0).val / 400 < 25) N_2.symm⟩
  obtain ⟨-, -, -, -, -, -, e0, e1⟩ := index_facts t
  have ht : t.val = (i 0).val / 400 := rfl
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 64 ≤ (i 1).val ∧ (i 1).val < win2_3.index t (1 : Fin 2) * 64 + 64; omega

/-- THE OUTPUT ARRAY after the region: the layer of the arrays the region was entered with. -/
theorem final (c : Dev nD) : (dat2 V c).arrAt 3 cfg2.N = layer2 (V c main_v3) (V c main_v7) (V c main_v1) :=
  (dat2 V c).arrAt_eq_of_cover 3 (layer2 (V c main_v3) (V c main_v7) (V c main_v1))
    (fun t _ => flushed_eq V c t) (cover)

end Cert.KernelIdeal.Region2

end
-- ==== Proof.KernelValue.lean ====
/-
  The idealized kernel's result array as the network of its six argument arrays.

  The buffers are followed boundary by boundary. The host operations before the first region lay the two bias vectors
  out as one-row matrices and change the float format of the other four arguments (the identity on extended reals). The
  projection region leaves `P = x · W₁` in its output array and every other buffer as it found it; the first-layer region
  leaves `Q = max(adj · P + b₁, 0) · W₂`, its inputs unchanged; the second-layer region leaves the row-wise log-softmax of
  `adj · Q + b₂` in the result array. Composed, the result array is `network x adj W₁ b₁ W₂ b₂`.
-/
import proofs.«164380_g25151328485548_cont_9to1_1866_6_alg».proof.Proof.KernelRun
import proofs.«164380_g25151328485548_cont_9to1_1866_6_alg».proof.Proof.Region0
import proofs.«164380_g25151328485548_cont_9to1_1866_6_alg».proof.Proof.Region1
import proofs.«164380_g25151328485548_cont_9to1_1866_6_alg».proof.Proof.Region2
import Idealize.ShloMosaic.Lib.StableHlo.Run
import Idealize.ShloMosaic.Lib.Pipeline.Value

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.GraphConv
open Cert.LibLogSoftmax (Arr)

variable (m : (ℓ : Loc nD τ sig) → Buf (Elt Ideal) ℓ) (ρ : Dev nD → PrngReg)

/-! ## The host operations before the first region -/

/-- A change of float format is the identity: the four converted buffers hold the arguments. -/
theorem entry_x (c : Dev nD) : (V1 m ρ c main_v2 : Arr 10000 512) = m ((c : Thread nD τ).loc main_arg0) := by
  dsimp only [V1, W1, hostOps0]; after_results; rfl
theorem entry_adj (c : Dev nD) : (V1 m ρ c main_v3 : Arr 10000 10000) = m ((c : Thread nD τ).loc main_arg1) := by
  dsimp only [V1, W1, hostOps0]; after_results; rfl
theorem entry_W1 (c : Dev nD) : (V1 m ρ c main_v4 : Arr 512 512) = m ((c : Thread nD τ).loc main_arg2) := by
  dsimp only [V1, W1, hostOps0]; after_results; rfl
theorem entry_W2 (c : Dev nD) : (V1 m ρ c main_v5 : Arr 512 64) = m ((c : Thread nD τ).loc main_arg4) := by
  dsimp only [V1, W1, hostOps0]; after_results; rfl

/-- A vector `[N]` reshaped to `[1, N]` is the vector as a one-row matrix. -/
theorem reshape_row {N : Nat} (v : (⟨1, ![N]⟩ : Shape).Idx → EReal) (h : (⟨1, ![N]⟩ : Shape).ShapeCasts ⟨2, ![1, N]⟩) :
    shapeCast ⟨2, ![1, N]⟩ v h = asRow v := by
  funext j
  obtain ⟨k, e, rfl⟩ : ∃ (k : Fin 1) (e : Fin N), j = ix2 k e := ⟨j 0, j 1, eq_ix2 j⟩
  refine shapeCast_apply v h (ix2 k e) (ix1 e) ?_
  rw [Shape.rowMajor_val_one, Shape.rowMajor_val_two]
  show e.val = k.val * N + e.val
  have hk : k.val = 0 := by have := k.isLt; omega
  rw [hk]
  omega

theorem entry_b1 (c : Dev nD) : (V1 m ρ c main_v0 : Arr 1 512) = asRow (m ((c : Thread nD τ).loc main_arg3)) := by
  refine Eq.trans ?_ (reshape_row (m ((c : Thread nD τ).loc main_arg3)) shapeCasts_S512_S1x512)
  dsimp only [V1, W1, hostOps0]; after_results; rfl
theorem entry_b2 (c : Dev nD) : (V1 m ρ c main_v1 : Arr 1 64) = asRow (m ((c : Thread nD τ).loc main_arg5)) := by
  refine Eq.trans ?_ (reshape_row (m ((c : Thread nD τ).loc main_arg5)) shapeCasts_S64_S1x64)
  dsimp only [V1, W1, hostOps0]; after_results; rfl

/-! ## The regions, one after the other -/

/-- After the projection region: `P = x · W₁`. -/
theorem after0_P (c : Dev nD) : (V2 m ρ c main_v6 : Arr 10000 512) = prod (V1 m ρ c main_v2) (V1 m ρ c main_v4) :=
  (W2_arr m ρ c 2).trans (Cert.KernelIdeal.Region0.final (V1 m ρ) c)

/-- After the first-layer region: `Q = max(adj · P + b₁, 0) · W₂` of the buffers as the projection region left them. -/
theorem after1_Q (c : Dev nD) : (V3 m ρ c main_v7 : Arr 10000 64)
    = layer1 (V2 m ρ c main_v3) (V2 m ρ c main_v6) (V2 m ρ c main_v0) (V2 m ρ c main_v5) :=
  (W3_arr m ρ c 4).trans (Cert.KernelIdeal.Region1.final (V2 m ρ) c)

/-- After the second-layer region: the result array. -/
theorem after2_out (c : Dev nD) : (W4 m ρ c (Proc.devRef .tc main_v8) : Arr 10000 64)
    = layer2 (V3 m ρ c main_v3) (V3 m ρ c main_v7) (V3 m ρ c main_v1) :=
  (W4_arr m ρ c 3).trans (Cert.KernelIdeal.Region2.final (V3 m ρ) c)

/-- The first-layer region reads the adjacency and leaves it as it found it. -/
theorem kept1_adj (c : Dev nD) : (V3 m ρ c main_v3 : Arr 10000 10000) = V2 m ρ c main_v3 :=
  (W3_arr m ρ c 0).trans (((dat1 (V2 m ρ) c).arrAt_in 0 rfl cfg1.N).trans (A_eq1 (V2 m ρ) c 0))

/-- THE RESULT ARRAY after the run is the network of the argument arrays. -/
theorem result_eq (c : Dev nD) : (W4 m ρ c (Proc.devRef .tc main_v8) : Arr 10000 64)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have a3 : (V3 m ρ c main_v3 : Arr 10000 10000) = m ((c : Thread nD τ).loc main_arg1) :=
    (kept1_adj m ρ c).trans ((W2_of_ne m ρ c main_v3 (by decide)).trans (entry_adj m ρ c))
  have a2 : (V2 m ρ c main_v3 : Arr 10000 10000) = m ((c : Thread nD τ).loc main_arg1) :=
    (W2_of_ne m ρ c main_v3 (by decide)).trans (entry_adj m ρ c)
  have b1 : (V2 m ρ c main_v0 : Arr 1 512) = asRow (m ((c : Thread nD τ).loc main_arg3)) :=
    (W2_of_ne m ρ c main_v0 (by decide)).trans (entry_b1 m ρ c)
  have w2 : (V2 m ρ c main_v5 : Arr 512 64) = m ((c : Thread nD τ).loc main_arg4) :=
    (W2_of_ne m ρ c main_v5 (by decide)).trans (entry_W2 m ρ c)
  have b2 : (V3 m ρ c main_v1 : Arr 1 64) = asRow (m ((c : Thread nD τ).loc main_arg5)) :=
    (W3_of_ne m ρ c main_v1 (by decide)).trans ((W2_of_ne m ρ c main_v1 (by decide)).trans (entry_b2 m ρ c))
  rw [after2_out, after1_Q, after0_P, a3, a2, b1, w2, b2, entry_x, entry_W1]
  rfl

/-- THE RUN: every weakly fair execution of the idealized kernel terminates, nothing faulting, with the result array at the
    network of the argument arrays and the argument arrays as launched. -/
theorem run : θ_run defs (onTc (τ := τ) (main (F := Ideal))) ⟨m, fun _ => 0, ρ⟩ (fun r => ∀ c : Dev nD,
      r.2.mem ((c.tc : Thread nD τ).loc main_v8)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Whole

end
-- ==== Proof.Reference.lean ====
/-
  The idealized reference's result array as the network of its six argument arrays.

  The reference's result is the fold of its 28 host operations from the launch contents. The first thirteen compute the
  logits `z = adj · (max(adj · (x · W₁) + b₁, 0) · W₂) + b₂`, each value read once; the last fifteen are the host's
  log-softmax of `z`, which reads `z` at four places. The fold is therefore evaluated in two stages, the second over an
  arbitrary valuation, so that `z` stays one name. The host's products are plain sums over the shared axis, a bias broadcast
  through `[1, N]` to `[M, N]` reads its entry of the column, and the host's log-softmax is the row-wise log-softmax.
-/
import proofs.«164380_g25151328485548_cont_9to1_1866_6_alg».proof.Proof.ReferenceRunP
import proofs.«164380_g25151328485548_cont_9to1_1866_6_alg».proof.Proof.GraphConv
import proofs.«164380_g25151328485548_cont_9to1_1866_6_alg».proof.Proof.LibDotSum
import proofs.«164380_g25151328485548_cont_9to1_1866_6_alg».proof.Proof.LibLogSoftmax
import Idealize.ShloMosaic.Lib.StableHlo.Run
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.GraphConv
open Cert.LibLogSoftmax (Arr rowLogSoftmax)

/-! ## The host's operations at an entry -/

/-- The host's product of an `M × K` by a `K × N` array is the plain product. -/
theorem dot_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ .f32) (B : FVec Ideal ⟨2, ![K, N]⟩ .f32) :
    Host.dotGeneral D none A B = prod A B := by
  funext j
  obtain ⟨p, q, rfl⟩ : ∃ (p : Fin M) (q : Fin N), j = ix2 p q := ⟨j 0, j 1, eq_ix2 j⟩
  exact (Ideal.dotGeneral_apply D none .single A B (ix2 p q)).trans (Cert.LibDotSum.sum_dot D hr hs hl0 hl1 hr0 hr1 A B p q)

theorem reduces_rows : S10000x64.Reduces [1] S10000 := by decide

/-- The rectified first layer followed by the second projection, as the host spells it, is `layer1`. -/
theorem hidden_eq (adj : FVec Ideal S10000x10000 .f32) (P : FVec Ideal S10000x512 .f32) (b1 : FVec Ideal S512 .f32) (W2 : FVec Ideal S512x64 .f32) :
    Host.dotGeneral dot_S10000x512_S512x64_S10000x64_1_0_0_1_n_n none
        (maximumf
          (addf (Host.dotGeneral dot_S10000x10000_S10000x512_S10000x512_1_0_0_1_n_n none adj P)
            (broadcastInDim S10000x512 ![0, 1] bcast_S1x512_S10000x512_0_1 (broadcastInDim S1x512 ![1] bcast_S512_S1x512_1 b1)))
          (broadcastInDim S10000x512 ![] bcast_S_S10000x512 (constant (F := Ideal) S_ .f32 0x00000000#32)))
        W2
      = layer1 adj P (asRow b1) W2 := by
  rw [dot_eq_prod dot_S10000x10000_S10000x512_S10000x512_1_0_0_1_n_n rfl rfl (fun _ _ => rfl) (fun _ _ => rfl) (fun _ _ => rfl) (fun _ _ => rfl) adj P,
    dot_eq_prod dot_S10000x512_S512x64_S10000x64_1_0_0_1_n_n rfl rfl (fun _ _ => rfl) (fun _ _ => rfl) (fun _ _ => rfl) (fun _ _ => rfl)]
  funext j
  obtain ⟨k, q, rfl⟩ : ∃ (k : Fin 10000) (q : Fin 64), j = ix2 k q := ⟨j 0, j 1, eq_ix2 j⟩
  rw [prod_ix2, layer1_ix2]
  unfold layer1At
  refine Finset.sum_congr rfl fun e _ => congrArg (· * W2 (ix2 e q)) ?_
  rw [maximumf_apply, addf_apply, prod_ix2, Cert.LibDotSum.bias_apply,
    broadcastInDim_apply _ bcast_S_S10000x512 _ (ix2 k e) ix0 (fun d => d.elim0)]
  rfl

/-- The logits as the host spells them. -/
theorem logits_eq (adj : FVec Ideal S10000x10000 .f32) (Q : FVec Ideal S10000x64 .f32) (b2 : FVec Ideal S64 .f32) :
    addf (Host.dotGeneral dot_S10000x10000_S10000x64_S10000x64_1_0_0_1_n_n none adj Q)
        (broadcastInDim S10000x64 ![0, 1] bcast_S1x64_S10000x64_0_1 (broadcastInDim S1x64 ![1] bcast_S64_S1x64_1 b2))
      = logits adj Q (asRow b2) := by
  rw [dot_eq_prod dot_S10000x10000_S10000x64_S10000x64_1_0_0_1_n_n rfl rfl (fun _ _ => rfl) (fun _ _ => rfl) (fun _ _ => rfl) (fun _ _ => rfl) adj Q]
  funext j
  obtain ⟨p, q, rfl⟩ : ∃ (p : Fin 10000) (q : Fin 64), j = ix2 p q := ⟨j 0, j 1, eq_ix2 j⟩
  rw [addf_apply, prod_ix2, Cert.LibDotSum.bias_apply, logits_ix2]
  rfl

/-- The host's log-softmax of an array `z`: its own text, over `z`. -/
def hostLogSoftmax (z : FVec Ideal S10000x64 .f32) : FVec Ideal S10000x64 .f32 :=
  subf (subf z (broadcastInDim S10000x64 ![0, 1] bcast_S10000x1_S10000x64_0_1 (broadcastInDim S10000x1 ![0] bcast_S10000_S10000x1_0
        (maximumf (broadcastInDim S10000 ![] bcast_S_S10000 (constant (F := Ideal) S_ .f32 0xFF800000#32))
          (Host.reduce FloatOps.maximumf z (constant (F := Ideal) S_ .f32 0xFF800000#32) reducesTo_S10000x64_S10000_d1 h_S_)))))
    (broadcastInDim S10000x64 ![0, 1] bcast_S10000x1_S10000x64_0_1
      (Host.log (broadcastInDim S10000x1 ![0] bcast_S10000_S10000x1_0
        (Host.reduceAdd
          (Host.exp (subf z (broadcastInDim S10000x64 ![0, 1] bcast_S10000x1_S10000x64_0_1 (broadcastInDim S10000x1 ![0] bcast_S10000_S10000x1_0
            (maximumf (broadcastInDim S10000 ![] bcast_S_S10000 (constant (F := Ideal) S_ .f32 0xFF800000#32))
              (Host.reduce FloatOps.maximumf z (constant (F := Ideal) S_ .f32 0xFF800000#32) reducesTo_S10000x64_S10000_d1 h_S_))))))
          (constant (F := Ideal) S_ .f32 0x00000000#32) reducesTo_S10000x64_S10000_d1 h_S_))))

/-- It is the row-wise log-softmax. -/
theorem hostLogSoftmax_eq (z : FVec Ideal S10000x64 .f32) : hostLogSoftmax z = rowLogSoftmax z := by
  funext j
  obtain ⟨a, b, rfl⟩ : ∃ (a : Fin 10000) (b : Fin 64), j = ix2 a b := ⟨j 0, j 1, eq_ix2 j⟩
  exact Cert.LibLogSoftmax.host_logSoftmax_apply z reducesTo_S10000x64_S10000_d1 reduces_rows h_S_ bcast_S_S10000
    bcast_S10000_S10000x1_0 bcast_S10000x1_S10000x64_0_1 a b

/-! ## The fold, in two stages -/

/-- A fold over a concatenation is the second fold after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The thirteen operations up to the logits, and the log-softmax's fifteen. -/
abbrev opsLogits : List (HloOp τ sig (Elt Ideal)) := (ops (F := Ideal)).take 13
abbrev opsSoftmax : List (HloOp τ sig (Elt Ideal)) := (ops (F := Ideal)).drop 13

theorem ops_split : ops (F := Ideal) = opsLogits ++ opsSoftmax := (List.take_append_drop 13 _).symm

/-- Stage one: the logits, from the launch contents. -/
theorem logits_stage (m : (ℓ : Loc nD τ sig) → Buf (Elt Ideal) ℓ) (c : Dev nD) :
    (after opsLogits (launchContents m c) (Proc.devRef .tc main_v10) : Arr 10000 64)
      = logits (m ((c.tc : Thread nD τ).loc main_arg1))
          (layer1 (m ((c.tc : Thread nD τ).loc main_arg1))
            (prod (m ((c.tc : Thread nD τ).loc main_arg0)) (m ((c.tc : Thread nD τ).loc main_arg2)))
            (asRow (m ((c.tc : Thread nD τ).loc main_arg3))) (m ((c.tc : Thread nD τ).loc main_arg4)))
          (asRow (m ((c.tc : Thread nD τ).loc main_arg5))) := by
  rw [← logits_eq, ← hidden_eq,
    ← dot_eq_prod dot_S10000x512_S512x512_S10000x512_1_0_0_1_n_n rfl rfl (fun _ _ => rfl) (fun _ _ => rfl) (fun _ _ => rfl) (fun _ _ => rfl)]
  simp only [opsLogits, ops, List.take_succ_cons, List.take_zero]
  after_results
  rfl

/-- Stage two: the log-softmax's operations from ANY valuation give the host's log-softmax of what it holds at the logits' buffer. -/
theorem softmax_stage (W : Valuation τ sig (Elt Ideal)) :
    after opsSoftmax W (Proc.devRef .tc main_v11) = hostLogSoftmax (W (Proc.devRef .tc main_v10)) := by
  simp only [opsSoftmax, ops, List.drop_succ_cons, List.drop_zero]
  after_results
  simp only [TRef.toBuf, TRef.ofBuf, cast_eq]
  rfl

/-- THE RESULT ARRAY of the reference's run is the network of the argument arrays. -/
theorem result_eq (m : (ℓ : Loc nD τ sig) → Buf (Elt Ideal) ℓ) (c : Dev nD) :
    (res_main_v11 (F := Ideal) m c : Arr 10000 64)
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold res_main_v11
  rw [ops_split, after_append, softmax_stage, hostLogSoftmax_eq, logits_stage]
  rfl

end Cert.ReferenceIdeal.RefValue

end
-- ==== Proof.lean ====
/- The proof of `Cert.Claim` (proofs.«164380_g25151328485548_cont_9to1_1866_6_alg».proof.Defs): a two-layer graph convolution with a
   dense adjacency, `out = log_softmax(adj · (max(adj · (x · W₁) + b₁, 0) · W₂) + b₂)`, computed by three kernels — the projection
   `x · W₁`, the first layer with the second projection fused behind it, the second layer with its row-wise log-softmax —
   against the same expression in plain array operations.

   At the extended reals a change of float format is the identity, a product accumulated into the zero array is the plain
   sum over the shared axis, and the two programs group their products the same way, so both results are ONE function of
   the six arguments, `GraphConv.network` (Proof/GraphConv.lean): no law that needs finite inputs is used, and the
   precondition is never opened. The kernel side: what each body stores, at an entry (Proof/Payload.lean); each region's
   output array as a function of the arrays it is entered with, its blocks of rows tiling the array (Proof/Region0.lean,
   Region1.lean, Region2.lean); the regions composed along the run (Proof/KernelRun.lean, Proof/KernelValue.lean). The
   reference side: its 28 host operations folded in two stages and read with the same lemmas (Proof/Reference.lean).
   The ideal pass rewrote nothing, so `preserves` is `True`. -/
import proofs.«164380_g25151328485548_cont_9to1_1866_6_alg».proof.Defs
import proofs.«164380_g25151328485548_cont_9to1_1866_6_alg».proof.Proof.Gen.Kernel
import proofs.«164380_g25151328485548_cont_9to1_1866_6_alg».proof.Proof.Gen.Kernel.Skeleton
import proofs.«164380_g25151328485548_cont_9to1_1866_6_alg».proof.Proof.Gen.Kernel.Launch
import proofs.«164380_g25151328485548_cont_9to1_1866_6_alg».proof.Proof.Gen.Kernel.Points
import proofs.«164380_g25151328485548_cont_9to1_1866_6_alg».proof.Proof.Gen.Kernel.Frame
import proofs.«164380_g25151328485548_cont_9to1_1866_6_alg».proof.Proof.Gen.KernelIdeal
import proofs.«164380_g25151328485548_cont_9to1_1866_6_alg».proof.Proof.Gen.KernelIdeal.Skeleton
import proofs.«164380_g25151328485548_cont_9to1_1866_6_alg».proof.Proof.Gen.KernelIdeal.Launch
import proofs.«164380_g25151328485548_cont_9to1_1866_6_alg».proof.Proof.Gen.KernelIdeal.Points
import proofs.«164380_g25151328485548_cont_9to1_1866_6_alg».proof.Proof.Gen.KernelIdeal.Frame
import proofs.«164380_g25151328485548_cont_9to1_1866_6_alg».proof.Proof.Gen.ReferenceIdeal
import proofs.«164380_g25151328485548_cont_9to1_1866_6_alg».proof.Proof.Gen.Pre_finite_inputs
import proofs.«164380_g25151328485548_cont_9to1_1866_6_alg».proof.Proof.KernelValue
import proofs.«164380_g25151328485548_cont_9to1_1866_6_alg».proof.Proof.Reference
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the six arguments both idealized programs end with the network of those arguments in their
    result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  refine (Cert.ReferenceIdeal.RefValue.result_eq m' c).trans ?_
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
